-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S1x128 : Shape := ⟨2, ![1, 128]⟩
abbrev S5000x128 : Shape := ⟨2, ![5000, 128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩

abbrev nBuf : Space → Nat
  | .hbm => 36
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S128x128, .f32⟩
  | .hbm, ⟨9, _⟩ => ⟨S1x128, .f32⟩
  | .hbm, ⟨10, _⟩ => ⟨S100000x128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S100000, .f32⟩
  | .hbm, ⟨28, _⟩ => ⟨S600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S128x128, .f32⟩
  | .hbm, ⟨9, _⟩ => ⟨S100000x128, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S_, .f32⟩
  | .hbm, ⟨14, _⟩ => ⟨S100000x128, .f32⟩
  | .hbm, ⟨15, _⟩ => ⟨S100000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S100000, .f32⟩
  | .hbm, ⟨33, _⟩ => ⟨S600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

class Facts : Prop extends Facts₀ where

variable [Facts]
-- ==== Proof.LinearRelu.lean ====
/-
  The dense layer both programs compute before the edge aggregation, as ONE function of the three float arguments, index by
  index on the extended reals: entry (r, c) of the layer's output is

      max (Σ_k x[r, k] · W[c, k] + b[c]) 0

  — row r of the node features against row c of the weight (a product with the weight's transpose), the bias of column c
  added, the result clamped below at zero. The contraction runs over the 128 feature coordinates in one fixed order on both
  sides, so no law of the extended reals beyond the definitions is needed to identify the two programs' layers.
-/
import Idealize.ShloMosaic.PureOps.Ideal
import Idealize.ShloMosaic.PureOps.Ideal.Laws
import Idealize.ShloMosaic.Lib.ValueIdx

noncomputable section

namespace Cert.LinearRelu

open Idealize.ShloMosaic Idealize.ShloMosaic.ValueIdx

/-- The layer's output at (r, c): the clamped affine form of row r of `x` against row c of `W`. -/
def layer (x : FVec Ideal ⟨2, ![100000, 128]⟩ .f32) (W : FVec Ideal ⟨2, ![128, 128]⟩ .f32) (b : FVec Ideal ⟨1, ![128]⟩ .f32) :
    FVec Ideal ⟨2, ![100000, 128]⟩ .f32 :=
  fun i => max ((∑ k : Fin 128, x (ix2 (i 0) k) * W (ix2 (i 1) k)) + b (ix1 (i 1))) 0

theorem layer_apply (x : FVec Ideal ⟨2, ![100000, 128]⟩ .f32) (W : FVec Ideal ⟨2, ![128, 128]⟩ .f32) (b : FVec Ideal ⟨1, ![128]⟩ .f32)
    (r : Fin 100000) (c : Fin 128) :
    layer x W b (ix2 r c) = max ((∑ k : Fin 128, x (ix2 r k) * W (ix2 c k)) + b (ix1 c)) 0 := rfl

end Cert.LinearRelu

end
-- ==== Proof.ReferenceLayer.lean ====
/-
  The reference's dense layer, read one operation at a time: the host's `dot_general` of `x` with the transposed weight is,
  at (r, c), the sum over k of x[r, k] · W[c, k] (the transpose swaps the weight's two coordinates back); the bias reaches
  column c through two broadcasts; `relu` is the maximum with the zero constant. So the array the reference gathers from is
  `LinearRelu.layer` of the arguments.
-/
import proofs.«143710_j49323404427447_1_alg».proof.Proof.Gen.ReferenceIdeal.Read
import proofs.«143710_j49323404427447_1_alg».proof.Proof.LinearRelu

noncomputable section

namespace Cert.ReferenceIdeal.Layer

open Cert.ReferenceIdeal Cert.ReferenceIdeal.Read Idealize.ShloMosaic Idealize.ShloMosaic.ValueIdx

/-- The left operand's index of the contraction at output (r, c) and step k is (r, k). -/
theorem lidx_eq (r : Fin 100000) (c : Fin 128) (k : Fin 128) : lidx_main_v5 (ix2 r c) k = ix2 r k :=
  funext fun a => match a with | ⟨0, _⟩ => rfl | ⟨1, _⟩ => rfl

/-- The transposed weight at the right operand's index (k, c) is the weight at (c, k). -/
theorem ridx_eq (r : Fin 100000) (c : Fin 128) (k : Fin 128) : idx_main_v4 (ridx_main_v5 (ix2 r c) k) = ix2 c k :=
  funext fun a => match a with | ⟨0, _⟩ => rfl | ⟨1, _⟩ => rfl

/-- The twice-broadcast bias at (r, c) is the bias at c. -/
theorem bidx_eq (r : Fin 100000) (c : Fin 128) : idx_main_v6 (idx_main_v7 (ix2 r c)) = ix1 c :=
  funext fun a => match a with | ⟨0, _⟩ => rfl

/-- The array the reference's `relu` call returns is the layer of the arguments. -/
theorem val_main_v9_eq_layer (x0 : FVec Ideal S100000x128 .f32) (x2 : FVec Ideal S128x128 .f32) (x3 : FVec Ideal S128 .f32) :
    val_main_v9 (F := Ideal) x0 x2 x3 = Cert.LinearRelu.layer x0 x2 x3 := by
  funext i
  obtain ⟨r, c, rfl⟩ : ∃ (r : Fin 100000) (c : Fin 128), i = ix2 r c := ⟨i 0, i 1, eq_ix2 i⟩
  rw [Cert.LinearRelu.layer_apply, val_main_v9_apply, val_main_v8_apply, val_main_v5_apply, val_main_v7_apply, val_main_v6_apply,
    val_main_call0_v0_apply, val_main_call0_cst_apply]
  simp only [val_main_v4_apply, lidx_eq, ridx_eq, bidx_eq, Ideal.maximumf_def, Ideal.addf_def, Ideal.ofBits_def, Ideal.ofBits_zero_f32]

end Cert.ReferenceIdeal.Layer

end
-- ==== Proof.EdgeAggregate.lean ====
/-
  The edge aggregation both programs run, on the host, after the dense layer: with `src` and `tgt` the two rows of the edge
  list, each edge adds row `tgt` of the layer's output (a negative target index wrapped once by the row count, as indexing
  does) into row `src` of a zero array, the edges' count per source row is clamped below at one, and each aggregated row is
  divided by its count. It is stated once, as a function of the layer's output and of the edge list, over the reference's own
  stages of the edge list, so that each program's result is this function of its layer array.
-/
import proofs.«143710_j49323404427447_1_alg».proof.Proof.Gen.ReferenceIdeal.Read

noncomputable section

namespace Cert.ReferenceIdeal.Edges

open Cert.ReferenceIdeal Cert.ReferenceIdeal.Read Idealize.ShloMosaic

/-- The mean, over the edges leaving each node, of the rows of `xt` the edges point at. -/
def aggregate (xt : FVec Ideal S100000x128 .f32) (e : (⟨S2x600000, .i32⟩ : BufTy).Contents (Elt Ideal)) : FVec Ideal S100000x128 .f32 :=
  Host.divf (F := Ideal)
    (Host.scatterAdd (F := Ideal) scatter_S100000x128_S600000x1_S600000x128_1_0_0_1 (val_main_v17 (F := Ideal)) (val_main_v18 (F := Ideal) e)
      (Host.gather gather_S100000x128_S600000x1_S600000x128_1_0_n_n_0_1_1128 xt (val_main_v15 (F := Ideal) e)))
    (val_main_v27 (F := Ideal) e)

/-- The reference's result is the aggregation of its layer array. -/
theorem val_main_v28_eq_aggregate (x0 : FVec Ideal S100000x128 .f32) (x1 : (⟨S2x600000, .i32⟩ : BufTy).Contents (Elt Ideal))
    (x2 : FVec Ideal S128x128 .f32) (x3 : FVec Ideal S128 .f32) :
    val_main_v28 (F := Ideal) x0 x1 x2 x3 = aggregate (val_main_v9 (F := Ideal) x0 x2 x3) x1 := rfl

end Cert.ReferenceIdeal.Edges

end
-- ==== Proof.BlockPayload.lean ====
/-
  What the kernel body stores, read at one entry of its 5000-row block: the body multiplies the block of `x` by the resident
  (transposed) weight into a zero accumulator, adds the one-row bias broadcast down the rows and clamps at zero. The
  changes of float format around the product are the identity on the extended reals, and a product into a zero accumulator
  is the plain sum over the contracted coordinate, so entry (p, q) of the stored block is

      max (Σ_k xblk[p, k] · wt[k, q] + brow[0, q]) 0.
-/
import proofs.«143710_j49323404427447_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The left operand's row coordinate of the body's product at output index `i` is `i`'s row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column coordinate of the body's product at output index `i` is `i`'s column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's product into the zero accumulator, at (p, q): the sum over k of the left block at (p, k) times the right at (k, q). -/
theorem product_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun ax => Fin.ext (by
      match ax with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun ax => Fin.ext (by
      match ax with
      | ⟨0, _⟩ => exact (dot_S5000x128_S128x128_S5000x128_1_0_0_1_n_n.rhsIdx_val_of_single rfl _ _).trans hk
      | ⟨1, _⟩ => exact rhs_col _ _)
  rw [el, er]

/-- THE STORED BLOCK AT (p, q), as a function of the three loaded blocks. -/
theorem payload_apply (v0 : Vec Ideal S5000x128 .f32) (v2 : Vec Ideal S128x128 .f32) (v6 : Vec Ideal S1x128 .f32) (p : Fin 5000) (q : Fin 128) :
    k0_pay1 (F := Ideal) v0 v2 v6 (ix2 p q)
      = max ((∑ k : Fin 128, v0 (ix2 p k) * v2 (ix2 k q)) + v6 (ix2 (0 : Fin 1) q)) 0 := by
  unfold k0_pay1
  simp only [shapeCast_self]
  rw [maximumf_apply, addf_apply, broadcast_apply, broadcastTo_1b_ab_apply, product_apply]
  simp only [truncf_apply, Scalar.ofBits, Ideal.ofBits_def, Ideal.ofBits_zero_f32]

end Cert.KernelIdeal.Block

end
-- ==== Proof.LayerArray.lean ====
/-
  The array the kernel's region leaves behind, as one function of the arguments. The grid has 20 points; point t stages rows
  5000·t … 5000·t + 4999 of `x`, the whole transposed weight and the one-row bias, and writes back rows 5000·t … 5000·t + 4999
  of the output. Entry (p, q) of the block it writes is the body's payload of the staged blocks, and those blocks read the
  arguments at (5000·t + p, k), at (q, k) through the host's transpose, and at q through the host's reshape: the entry is the
  dense layer `LinearRelu.layer` at (5000·t + p, q). The 20 row blocks tile the 100000 rows, so the whole array ends at the
  layer of the arguments.
-/
import proofs.«143710_j49323404427447_1_alg».proof.Proof.Gen.KernelIdeal.Frame
import proofs.«143710_j49323404427447_1_alg».proof.Proof.BlockPayload
import proofs.«143710_j49323404427447_1_alg».proof.Proof.LinearRelu
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.LayerArray

open Cert.KernelIdeal Cert.KernelIdeal.Gen Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The weight window's array, as the region finds it, is the host's transpose of the weight argument. -/
theorem V_wt (c : Dev nD) :
    (V m c main_v4 : S128x128.Idx → EReal) = transpose S128x128 [1, 0] (m ((c : Thread nD τ).loc main_arg2)) Facts₀.transposes_S128x128_S128x128_1_0 := by
  show StableHlo.after hostOps0 (fun b => m (c, b)) (Proc.devRef .tc main_v4) = _
  after_results <;> rfl

/-- The bias window's array, as the region finds it, is the host's reshape of the bias argument to one row. -/
theorem V_brow (c : Dev nD) :
    (V m c main_v5 : S1x128.Idx → EReal) = shapeCast S1x128 (m ((c : Thread nD τ).loc main_arg3)) Facts₀.shapeCasts_S128_S1x128 := by
  show StableHlo.after hostOps0 (fun b => m (c, b)) (Proc.devRef .tc main_v5) = _
  after_results <;> rfl

/-- The printed index maps, decided once over the 20 grid points: the `x` window and the output window are at row block `t`,
    column block 0; the weight and bias windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row 5000·t + p of the arrays, for a grid point t and a row p of its block. -/
def row (t : Fin cfg0.N) (p : Fin 5000) : Fin 100000 :=
  ⟨t.val * 5000 + p.val, by have h1 : t.val < cfg0.N := t.isLt; have hN : cfg0.N = 20 := N_0; have h2 : p.val < 5000 := p.isLt; omega⟩

/-- The `x` block at point t reads rows 5000·t + p of the argument. -/
theorem xblk_apply (c : Dev nD) (t : Fin cfg0.N) (p : Fin 5000) (k : Fin 128) :
    (iblk m c 0 t : Vec Ideal S5000x128 .f32) (ix2 p k) = (m ((c : Thread nD τ).loc main_arg0) : S100000x128.Idx → EReal) (ix2 (row t p) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight block at any point is the whole transposed weight: at (k, q) the weight argument at (q, k). -/
theorem wblk_apply (c : Dev nD) (t : Fin cfg0.N) (k : Fin 128) (q : Fin 128) :
    (iblk m c 1 t : Vec Ideal S128x128 .f32) (ix2 k q) = (m ((c : Thread nD τ).loc main_arg2) : S128x128.Idx → EReal) (ix2 q k) := by
  obtain ⟨-, -, e0, e1, -⟩ := idx_facts t
  unfold iblk
  rw [View.read_apply]
  show (V m c main_v4 : S128x128.Idx → EReal) _ = _
  rw [V_wt, ← transpose_ix2_apply (m ((c : Thread nD τ).loc main_arg2)) Facts₀.transposes_S128x128_S128x128_1_0 k q]
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias block at any point is the one-row bias: at (0, q) the bias argument at q. -/
theorem bblk_apply (c : Dev nD) (t : Fin cfg0.N) (q : Fin 128) :
    (iblk m c 2 t : Vec Ideal S1x128 .f32) (ix2 (0 : Fin 1) q) = (m ((c : Thread nD τ).loc main_arg3) : S128.Idx → EReal) (ix1 q) := by
  obtain ⟨-, -, -, -, e0, e1, -⟩ := idx_facts t
  unfold iblk
  rw [View.read_apply]
  show (V m c main_v5 : S1x128.Idx → EReal) _ = _
  rw [V_brow, ← shapeCast_a_1a_apply (m ((c : Thread nD τ).loc main_arg3)) Facts₀.shapeCasts_S128_S1x128 (0 : Fin 1) q]
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * q.val = q.val; rw [e1]; omega

/-- The dense layer of the argument arrays of core `c`. -/
def G (c : Dev nD) : S100000x128.Idx → EReal :=
  Cert.LinearRelu.layer (m ((c : Thread nD τ).loc main_arg0)) (m ((c : Thread nD τ).loc main_arg2)) (m ((c : Thread nD τ).loc main_arg3))

/-- Entry (p, q) of the output block of point t sits at (5000·t + p, q) of the array. -/
theorem oblk_emb (t : Fin cfg0.N) (p : Fin 5000) (q : Fin 128) :
    ((cfg0.win 3).blk t).view.emb (ix2 p q : S5000x128.Idx) = (ix2 (row t p) q : S100000x128.Idx) := by
  obtain ⟨-, -, -, -, -, -, e0, e1⟩ := idx_facts t
  refine funext fun a => Fin.ext ?_
  match a with
  | ⟨0, _⟩ => show win0_3.index t (0 : Fin 2) * 5000 + 1 * p.val = t.val * 5000 + p.val; rw [e0]; omega
  | ⟨1, _⟩ => show win0_3.index t (1 : Fin 2) * 128 + 1 * q.val = q.val; rw [e1]; omega

/-- WHAT POINT t WRITES BACK is block t of the dense layer of the arguments. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = (ix2 p q : S5000x128.Idx) := ⟨j 0, j 1, eq_ix2 j⟩
  show k0_pay1 (F := Ideal) (iblk m c 0 t) (iblk m c 1 t) (iblk m c 2 t) (ix2 p q) = G m c (((cfg0.win 3).blk t).view.emb (ix2 p q : S5000x128.Idx))
  rw [oblk_emb]
  refine (Cert.KernelIdeal.Block.payload_apply (iblk m c 0 t) (iblk m c 1 t) (iblk m c 2 t) p q).trans ?_
  unfold G
  rw [Cert.LinearRelu.layer_apply]
  refine congrArg (max · 0) (congrArg₂ (· + ·) (Finset.sum_congr rfl fun k _ => congrArg₂ (· * ·) (xblk_apply m c t p k) (wblk_apply m c t k q)) (bblk_apply m c t q))

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v6).slice (win0_3.rect t)).set ↔ _
  rw [View.set_slice_whole, Rect.mem_set_unit]
  exact Iff.rfl

/-- Every index of the array is in the block of the point its row falls in: row r belongs to point r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e0, e1⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

/-- THE ARRAY after the region: the dense layer of the arguments. -/
theorem final (c : Dev nD) : (dats m 0 c).arrAt 3 cfg0.N = G m c :=
  (dats m 0 c).arrAt_eq_of_cover 3 (G m c) (fun t _ => flushed_eq m c t) cover

end Cert.KernelIdeal.LayerArray

end
-- ==== Proof.KernelRun.lean ====
/-
  The kernel program's run, read: after the region the output array holds the dense layer of the arguments (`LayerArray.final`),
  and the host lines that follow gather from that array and scatter-add over the edge list. The two rows of the edge list those
  lines read were sliced and flattened by host lines BEFORE the region, which the region does not touch. So the program's result
  is the edge aggregation (`Edges.aggregate`) of the dense layer and the edge-list argument, and the four arguments end unchanged.
-/
import proofs.«143710_j49323404427447_1_alg».proof.Proof.LayerArray
import proofs.«143710_j49323404427447_1_alg».proof.Proof.EdgeAggregate
import Idealize.ShloMosaic.Lib.Pipeline.FrameSuffix

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.LayerArray Idealize.ShloMosaic.ValueIdx

variable (m : (ℓ : Loc nD τ sig) → Buf (Elt Ideal) ℓ) (ρ : Dev nD → PrngReg)

/-- The source row of the edge list, as the host lines before the region leave it: row 0 sliced out and flattened. -/
theorem V_src (c : Dev nD) :
    (V m c main_v1 : S600000.Idx → BitVec 32)
      = shapeCast S600000 (extractStridedSlice S1x600000 ![0, 0] (m ((c : Thread nD τ).loc main_arg1)) Facts₀.slices_S2x600000_S1x600000_0_0) Facts₀.shapeCasts_S1x600000_S600000 := by
  show StableHlo.after hostOps0 (fun b => m (c, b)) (Proc.devRef .tc main_v1) = _
  after_results <;> rfl

/-- The target row of the edge list, as the host lines before the region leave it: row 1 sliced out and flattened. -/
theorem V_tgt (c : Dev nD) :
    (V m c main_v3 : S600000.Idx → BitVec 32)
      = shapeCast S600000 (extractStridedSlice S1x600000 ![1, 0] (m ((c : Thread nD τ).loc main_arg1)) Facts₀.slices_S2x600000_S1x600000_1_0) Facts₀.shapeCasts_S1x600000_S600000 := by
  show StableHlo.after hostOps0 (fun b => m (c, b)) (Proc.devRef .tc main_v3) = _
  after_results <;> rfl

set_option maxHeartbeats 2000000 in
/-- THE RESULT: the host lines after the region compute the edge aggregation of the region's output array. -/
theorem result_eq (c : Dev nD) :
    Pipeline.afterTail₀ cfgs (dats m) 0 (V0 m) [hostOps1] c main_v25
      = Cert.ReferenceIdeal.Edges.aggregate (G m c) (m ((c : Thread nD τ).loc main_arg1)) := by
  have h6 : Pipeline.withArrays (cfgs 0).spec c (V0 m c) (fun w => (dats m 0 c).arrAt w (cfgs 0).N) (Proc.devRef .tc main_v6) = G m c :=
    (Pipeline.withArrays_arr spec0 launch0.win.arr_inj c _ _ 3).trans (final m c)
  have h1 := (Pipeline.withArrays_of_ne (cfgs 0).spec c (V0 m c) (fun w => (dats m 0 c).arrAt w (cfgs 0).N) main_v1
    (by exact (by decide : ∀ w, Pipeline.arrRef spec0 w ≠ main_v1))).trans (V_src m c)
  have h3 := (Pipeline.withArrays_of_ne (cfgs 0).spec c (V0 m c) (fun w => (dats m 0 c).arrAt w (cfgs 0).N) main_v3
    (by exact (by decide : ∀ w, Pipeline.arrRef spec0 w ≠ main_v3))).trans (V_tgt m c)
  unfold Pipeline.afterTail₀
  show StableHlo.after hostOps1 _ (Proc.devRef .tc main_v25) = _
  after_results_simp
  rw [h6, h1, h3]
  rfl

/-- THE RUN, read: the result at the edge aggregation of the dense layer of the arguments, the arguments unchanged. -/
theorem run : θ_run defs (onTc (τ := τ) (main (F := Ideal))) ⟨m, fun _ => 0, ρ⟩ fun r => ∀ c : Dev nD,
      r.2.mem ((c.tc : Thread nD τ).loc main_v25) = Cert.ReferenceIdeal.Edges.aggregate (G m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v25 (Pipeline.mem_restRefs_of main_v25 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.lean ====
/-
  The proof of `Cert.Claim`: a graph-convolution step — a dense layer over the node features followed by a mean aggregation
  over the edges — computed by a row-tiled kernel and by plain array code.

  Both programs first form the dense layer `max (x · Wᵀ + b) 0` over the 100000 node rows. The kernel does it 5000 rows at a
  time, multiplying each row block by the transposed weight into a zero accumulator, with format changes around the product
  that are the identity on the extended reals; the reference does it with one whole product. Entry by entry both are
  `max (Σ_k x[r, k] · W[c, k] + b[c]) 0`, the same sum in the same order (`LinearRelu.layer`), so the two layer arrays are
  equal with no appeal to finiteness of the inputs. Both programs then run the same host lines on that array: gather the rows
  the edges point at, scatter-add them into the edges' source rows, and divide by the clamped edge counts (`Edges.aggregate`).
  Equal layer arrays and equal edge lists give equal results.

  The three frame claims are the generated frame runs (the reference's is its generated run with the result dropped); the
  idealization rewrote nothing, so `preserves` is trivial.
-/
import proofs.«143710_j49323404427447_1_alg».proof.Defs
import proofs.«143710_j49323404427447_1_alg».proof.Proof.Gen.Kernel
import proofs.«143710_j49323404427447_1_alg».proof.Proof.Gen.Kernel.Skeleton
import proofs.«143710_j49323404427447_1_alg».proof.Proof.Gen.Kernel.Launch
import proofs.«143710_j49323404427447_1_alg».proof.Proof.Gen.Kernel.Points
import proofs.«143710_j49323404427447_1_alg».proof.Proof.Gen.Kernel.Frame
import proofs.«143710_j49323404427447_1_alg».proof.Proof.Gen.KernelIdeal
import proofs.«143710_j49323404427447_1_alg».proof.Proof.Gen.KernelIdeal.Skeleton
import proofs.«143710_j49323404427447_1_alg».proof.Proof.Gen.KernelIdeal.Launch
import proofs.«143710_j49323404427447_1_alg».proof.Proof.Gen.KernelIdeal.Points
import proofs.«143710_j49323404427447_1_alg».proof.Proof.Gen.KernelIdeal.Frame
import proofs.«143710_j49323404427447_1_alg».proof.Proof.Gen.ReferenceIdeal
import proofs.«143710_j49323404427447_1_alg».proof.Proof.Gen.Pre_finite_inputs
import proofs.«143710_j49323404427447_1_alg».proof.Proof.Gen.ReferenceIdeal.Run
import proofs.«143710_j49323404427447_1_alg».proof.Proof.Gen.ReferenceIdeal.Read
import proofs.«143710_j49323404427447_1_alg».proof.Proof.ReferenceLayer
import proofs.«143710_j49323404427447_1_alg».proof.Proof.EdgeAggregate
import proofs.«143710_j49323404427447_1_alg».proof.Proof.KernelRun
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel program ends at the edge aggregation of the dense layer of its arguments (`KernelRun`),
    and the reference at the same aggregation of ITS dense layer, which is the same function of the arguments
    (`ReferenceLayer`); the arguments agree. -/
theorem algebraic : Cert.algebraic_KernelIdeal_ReferenceIdeal := by
  intro m ρ m' ρ' _ hagree
  refine ⟨fun c => Cert.ReferenceIdeal.Edges.aggregate (Cert.KernelIdeal.LayerArray.G m c)
      (m ((c.tc : Thread Cert.KernelIdeal.nD Cert.KernelIdeal.τ).loc Cert.KernelIdeal.main_arg1)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.Edges.val_main_v28_eq_aggregate,
    Cert.ReferenceIdeal.Layer.val_main_v9_eq_layer, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
